-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S32768x512 : Shape := ⟨2, ![32768, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_

variable [Facts]

def fn {F : FTy → Type} [FloatOps F] (main_arg0 : FVec F S2048x512 .f32) (main_arg1 : FVec F S32768x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  main_v8
-- ==== Kernel.lean ====
abbrev S2048x512 : Shape := ⟨2, ![2048, 512]⟩
abbrev S32768x512 : Shape := ⟨2, ![32768, 512]⟩
abbrev S2048x1 : Shape := ⟨2, ![2048, 1]⟩
abbrev S1024x512 : Shape := ⟨2, ![1024, 512]⟩
abbrev S512x512 : Shape := ⟨2, ![512, 512]⟩
abbrev S1024x1 : Shape := ⟨2, ![1024, 1]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S2048 : Shape := ⟨1, ![2048]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S32768x512, .f32⟩
  | .hbm, ⟨2, _⟩ => ⟨S2048x1, .f32⟩
  | .hbm, ⟨3, _⟩ => ⟨S2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v41 : BitVec 1 := Scalar.cmpi .eq arg1 c63_i32
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  shapeCasts_S2048x1_S2048 : S2048x1.ShapeCasts S2048
  reducesTo_S2048_S_d0 : S2048.ReducesTo [0] S_
  h_S_ : 0 < S_.numel
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .f32 = 32 ∨ (Rect.block (s := S2048x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .f32 = 32 ∨ (Rect.block (s := S2048x1) S1024x1.size (cc0_transform_2 i) (hinb0_2 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x512 : Shape := ⟨2, ![2048, 512]⟩
abbrev S32768x512 : Shape := ⟨2, ![32768, 512]⟩
abbrev S_ : Shape := ⟨0, ![]⟩
abbrev S2048 : Shape := ⟨1, ![2048]⟩
abbrev S2048x1 : Shape := ⟨2, ![2048, 1]⟩
abbrev S32768 : Shape := ⟨1, ![32768]⟩
abbrev S32768x1 : Shape := ⟨2, ![32768, 1]⟩
abbrev S1x32768 : Shape := ⟨2, ![1, 32768]⟩
abbrev S2048x32768 : Shape := ⟨2, ![2048, 32768]⟩

abbrev nBuf : Space → Nat
  | .hbm => 48
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S32768x512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S32768x512, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S1x32768, .f32⟩
  | .hbm, ⟨11, _⟩ => ⟨S2048x32768, .f32⟩
  | .hbm, ⟨12, _⟩ => ⟨S2048x32768, .f32⟩
  | .hbm, ⟨13, _⟩ => ⟨S2048x32768, .f32⟩
  | .hbm, ⟨14, _⟩ => ⟨S2048x32768, .f32⟩
  | .hbm, ⟨15, _⟩ => ⟨S_, .f32⟩
  | .hbm, ⟨16, _⟩ => ⟨S2048x32768, .f32⟩
  | .hbm, ⟨17, _⟩ => ⟨S2048x32768, .f32⟩
  | .hbm, ⟨18, _⟩ => ⟨S2048x32768, .f32⟩
  | .hbm, ⟨19, _⟩ => ⟨S_, .f32⟩
  | .hbm, ⟨20, _⟩ => ⟨S2048x32768, .f32⟩
  | .hbm, ⟨21, _⟩ => ⟨S2048x32768, .f32⟩
  | .hbm, ⟨22, _⟩ => ⟨S2048x32768, .f32⟩
  | .hbm, ⟨23, _⟩ => ⟨S2048x32768, .f32⟩
  | .hbm, ⟨24, _⟩ => ⟨S2048x32768, .f32⟩
  | .hbm, ⟨25, _⟩ => ⟨S_, .f32⟩
  | .hbm, ⟨26, _⟩ => ⟨S2048x32768, .f32⟩
  | .hbm, ⟨27, _⟩ => ⟨S2048x32768, .f32⟩
  | .hbm, ⟨28, _⟩ => ⟨S2048x32768, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x32768, .f32⟩
  | .hbm, ⟨36, _⟩ => ⟨S2048x32768, .f32⟩
  | .hbm, ⟨37, _⟩ => ⟨S2048x32768, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  reducesTo_S32768x512_S32768_d1 : S32768x512.ReducesTo [1] S32768
  bcast_S32768_S32768x1_0 : S32768.BroadcastsInDim S32768x1 (![0] : Fin 1 → Fin S32768x1.rank)
  transposes_S32768x1_S1x32768_1_0 : S32768x1.Transposes [1, 0] S1x32768
  bcast_S2048x1_S2048x32768_0_1 : S2048x1.BroadcastsInDim S2048x32768 (![0, 1] : Fin 2 → Fin S2048x32768.rank)
  bcast_S1x32768_S2048x32768_0_1 : S1x32768.BroadcastsInDim S2048x32768 (![0, 1] : Fin 2 → Fin S2048x32768.rank)
  bcast_S_S2048x32768 : S_.BroadcastsInDim S2048x32768 (![] : Fin 0 → Fin S2048x32768.rank)
  reducesTo_S2048x32768_S2048_d1 : S2048x32768.ReducesTo [1] S2048
  bcast_S_S2048x1 : S_.BroadcastsInDim S2048x1 (![] : Fin 0 → Fin S2048x1.rank)
  bcast_S_S2048 : S_.BroadcastsInDim S2048 (![] : Fin 0 → Fin S2048.rank)
  reducesTo_S2048_S_d0 : S2048.ReducesTo [0] S_
  dot_S2048x512_S32768x512_S2048x32768_1_1_0_0_n_n_wf : DotDims.WF S2048x512 S32768x512 S2048x32768 [1] [1] [0] [0] [] []

variable [Facts₀]

def dot_S2048x512_S32768x512_S2048x32768_1_1_0_0_n_n : DotDims S2048x512 S32768x512 S2048x32768 where
  lhsContracting := [1]
  rhsContracting := [1]
  lhsNonContracting := [0]
  rhsNonContracting := [0]
  lhsBatch := []
  rhsBatch := []
  wf := dot_S2048x512_S32768x512_S2048x32768_1_1_0_0_n_n_wf

class Facts : Prop extends Facts₀ where

variable [Facts]
-- ==== Proof.Pieces.lean ====
/-
  What one run of the kernel body leaves in the buffers it carries from grid point to grid point, read back as values.

  The body keeps four buffers between points: the running sum of weights, the running sum of weight times distance, the
  squared norms of the current 1024 rows of X, and those rows themselves in the short float format. At the first
  column group of a row block (case A) it clears the two sums, fills the other two from the X block, and then adds
  the group's contribution like every other point; at a later group (cases B and C) it only adds; at the last group
  (case C) it also writes the capped quotient of the two sums out. Each lemma says which of the body's pure terms a
  buffer holds after a run of one case, as a function of the blocks and of what the buffers held before. They hold at
  any float instance.
-/
import proofs.«143901_j14620068675661_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .bf16) (harg8 : arg8.IsWhole)

/-- First group: the weights' sum is the cleared buffer plus this group's sum, over the freshly stored norms and rows. -/
theorem sA0 (hc0 : cond0_0 i) (hc1 : ¬cond0_1 i) (x0 : Vec F S1024x512 .f32) (x1 : Vec F S512x512 .f32) :
    sout0_A_0 c i arg2 harg2 arg3 harg3 arg4 harg4 arg5 harg5 arg6 harg6 arg7 harg7 arg8 harg8 hc0 hc1 x0 x1 = k0_pay9 x1 (k0_pay6 x0) (k0_pay5 x0) k0_pay3 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x1) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

/-- First group: the weighted distances' sum likewise. -/
theorem sA1 (hc0 : cond0_0 i) (hc1 : ¬cond0_1 i) (x0 : Vec F S1024x512 .f32) (x1 : Vec F S512x512 .f32) :
    sout0_A_1 c i arg2 harg2 arg3 harg3 arg4 harg4 arg5 harg5 arg6 harg6 arg7 harg7 arg8 harg8 hc0 hc1 x0 x1 = k0_pay1 k0_pay4 (k0_pay10 x1 (k0_pay6 x0) (k0_pay5 x0)) := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x1) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

/-- First group: the squared norms of the X block's rows. -/
theorem sA2 (hc0 : cond0_0 i) (hc1 : ¬cond0_1 i) (x0 : Vec F S1024x512 .f32) (x1 : Vec F S512x512 .f32) :
    sout0_A_2 c i arg2 harg2 arg3 harg3 arg4 harg4 arg5 harg5 arg6 harg6 arg7 harg7 arg8 harg8 hc0 hc1 x0 x1 = k0_pay5 x0 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_unit_zero (S := S1024x1) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

/-- First group: the X block in the short format. -/
theorem sA3 (hc0 : cond0_0 i) (hc1 : ¬cond0_1 i) (x0 : Vec F S1024x512 .f32) (x1 : Vec F S512x512 .f32) :
    sout0_A_3 c i arg2 harg2 arg3 harg3 arg4 harg4 arg5 harg5 arg6 harg6 arg7 harg7 arg8 harg8 hc0 hc1 x0 x1 = k0_pay6 x0 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_unit_zero (S := S1024x512) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

/-- A middle group: the weights' sum the point before left plus this group's. -/
theorem sB0 (hc0 : ¬cond0_0 i) (hc1 : ¬cond0_1 i) (x0 : Vec F S1024x512 .f32) (x1 : Vec F S512x512 .f32) (xs0 xs1 xs2 : Vec F S1024x1 .f32) (xs3 : Vec F S1024x512 .bf16) :
    sout0_B_0 c i arg2 harg2 arg3 harg3 arg4 harg4 arg5 harg5 arg6 harg6 arg7 harg7 arg8 harg8 hc0 hc1 x0 x1 xs0 xs1 xs2 xs3 = k0_pay9 x1 xs3 xs2 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S1024x1) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

/-- A middle group: the weighted distances' sum likewise. -/
theorem sB1 (hc0 : ¬cond0_0 i) (hc1 : ¬cond0_1 i) (x0 : Vec F S1024x512 .f32) (x1 : Vec F S512x512 .f32) (xs0 xs1 xs2 : Vec F S1024x1 .f32) (xs3 : Vec F S1024x512 .bf16) :
    sout0_B_1 c i arg2 harg2 arg3 harg3 arg4 harg4 arg5 harg5 arg6 harg6 arg7 harg7 arg8 harg8 hc0 hc1 x0 x1 xs0 xs1 xs2 xs3 = k0_pay1 xs1 (k0_pay10 x1 xs3 xs2) := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S1024x1) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

/-- The last group: the weights' sum, as at a middle group. -/
theorem sC0 (hc0 : ¬cond0_0 i) (hc1 : cond0_1 i) (x0 : Vec F S1024x512 .f32) (x1 : Vec F S512x512 .f32) (xs0 xs1 xs2 : Vec F S1024x1 .f32) (xs3 : Vec F S1024x512 .bf16) :
    sout0_C_0 c i arg2 harg2 arg3 harg3 arg4 harg4 arg5 harg5 arg6 harg6 arg7 harg7 arg8 harg8 hc0 hc1 x0 x1 xs0 xs1 xs2 xs3 = k0_pay9 x1 xs3 xs2 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S1024x1) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

/-- The last group: the weighted distances' sum, as at a middle group. -/
theorem sC1 (hc0 : ¬cond0_0 i) (hc1 : cond0_1 i) (x0 : Vec F S1024x512 .f32) (x1 : Vec F S512x512 .f32) (xs0 xs1 xs2 : Vec F S1024x1 .f32) (xs3 : Vec F S1024x512 .bf16) :
    sout0_C_1 c i arg2 harg2 arg3 harg3 arg4 harg4 arg5 harg5 arg6 harg6 arg7 harg7 arg8 harg8 hc0 hc1 x0 x1 xs0 xs1 xs2 xs3 = k0_pay1 xs1 (k0_pay10 x1 xs3 xs2) := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S1024x1) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

/-- The last group: the output block is the capped quotient of the two sums just stored. -/
theorem oC2 (hc0 : ¬cond0_0 i) (hc1 : cond0_1 i) (x0 : Vec F S1024x512 .f32) (x1 : Vec F S512x512 .f32) (xs0 xs1 xs2 : Vec F S1024x1 .f32) (xs3 : Vec F S1024x512 .bf16) :
    out0_C_2 c i arg2 harg2 arg3 harg3 arg4 harg4 arg5 harg5 arg6 harg6 arg7 harg7 arg8 harg8 hc0 hc1 x0 x1 xs0 xs1 xs2 xs3 = k0_pay2 (k0_pay1 xs1 (k0_pay10 x1 xs3 xs2)) (k0_pay9 x1 xs3 xs2 xs0) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S1024x1) hz]
  simp only [View.readAt_eq_ld, harg2.read_unread, harg3.read_unread, harg5.read_unread, harg6.read_unread, harg7.read_unread, harg8.read_unread,
    View.ld_unit_zero (S := S512x512) hz, View.ld_unit_zero (S := S1024x512) hz, View.ld_unit_zero (S := S1024x1) hz,
    View.readCov_unit_zero (S := S1024x1) _ hz, View.readCov_unit_zero (S := S1024x512) _ hz]

end Cert.KernelIdeal.Pieces

end
-- ==== Proof.Steps.lean ====
/-
  What the carried buffers and the output block hold after each grid point, in terms of the body's pure terms, of the
  point's two input blocks and of what the buffers held after the point before. Three kinds of point: the first column
  group of a row block (the buffers are filled afresh), a middle group, and the last group (which also writes the
  output block). They hold at any float instance.
-/
import proofs.«143901_j14620068675661_2_alg».proof.Proof.Pieces

set_option maxRecDepth 16384

noncomputable section

namespace Cert.KernelIdeal.Steps

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (c : Dev nD)

/-- What the buffers held after the point before `t`. -/
abbrev prev (t : Fin cfg0.N) := outsAt0 m c (t.val - 1) (Nat.lt_of_le_of_lt (Nat.sub_le _ _) t.isLt)

/-- First group: the weights' sum. -/
theorem A_w (t : Fin cfg0.N) (h0 : t.val % 64 = 0) (h1 : ¬t.val % 64 = 63) :
    (outsAt0 m c t.val t.isLt).2.1 = k0_pay9 (iblk m c 1 t) (k0_pay6 (iblk m c 0 t)) (k0_pay5 (iblk m c 0 t)) k0_pay3 := by
  rw [outsAt0_A m c t h0 h1]
  dsimp only
  exact Pieces.sA0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)

/-- First group: the weighted distances' sum. -/
theorem A_n (t : Fin cfg0.N) (h0 : t.val % 64 = 0) (h1 : ¬t.val % 64 = 63) :
    (outsAt0 m c t.val t.isLt).2.2.1 = k0_pay1 k0_pay4 (k0_pay10 (iblk m c 1 t) (k0_pay6 (iblk m c 0 t)) (k0_pay5 (iblk m c 0 t))) := by
  rw [outsAt0_A m c t h0 h1]
  dsimp only
  exact Pieces.sA1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)

/-- First group: the squared norms of the X block's rows. -/
theorem A_sq (t : Fin cfg0.N) (h0 : t.val % 64 = 0) (h1 : ¬t.val % 64 = 63) :
    (outsAt0 m c t.val t.isLt).2.2.2.1 = k0_pay5 (iblk m c 0 t) := by
  rw [outsAt0_A m c t h0 h1]
  dsimp only
  exact Pieces.sA2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)

/-- First group: the X block in the short format. -/
theorem A_x (t : Fin cfg0.N) (h0 : t.val % 64 = 0) (h1 : ¬t.val % 64 = 63) :
    (outsAt0 m c t.val t.isLt).2.2.2.2 = k0_pay6 (iblk m c 0 t) := by
  rw [outsAt0_A m c t h0 h1]
  dsimp only
  exact Pieces.sA3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)

/-- A middle group: the weights' sum. -/
theorem B_w (t : Fin cfg0.N) (h0 : ¬t.val % 64 = 0) (h1 : ¬t.val % 64 = 63) :
    (outsAt0 m c t.val t.isLt).2.1 = k0_pay9 (iblk m c 1 t) (prev m c t).2.2.2.2 (prev m c t).2.2.2.1 (prev m c t).2.1 := by
  rw [outsAt0_B m c t h0 h1]
  dsimp only
  exact Pieces.sB0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (prev m c t).2.1 (prev m c t).2.2.1 (prev m c t).2.2.2.1 (prev m c t).2.2.2.2

/-- A middle group: the weighted distances' sum. -/
theorem B_n (t : Fin cfg0.N) (h0 : ¬t.val % 64 = 0) (h1 : ¬t.val % 64 = 63) :
    (outsAt0 m c t.val t.isLt).2.2.1 = k0_pay1 (prev m c t).2.2.1 (k0_pay10 (iblk m c 1 t) (prev m c t).2.2.2.2 (prev m c t).2.2.2.1) := by
  rw [outsAt0_B m c t h0 h1]
  dsimp only
  exact Pieces.sB1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (prev m c t).2.1 (prev m c t).2.2.1 (prev m c t).2.2.2.1 (prev m c t).2.2.2.2

/-- A middle group leaves the squared norms as they were. -/
theorem B_sq (t : Fin cfg0.N) (h0 : ¬t.val % 64 = 0) (h1 : ¬t.val % 64 = 63) :
    (outsAt0 m c t.val t.isLt).2.2.2.1 = (prev m c t).2.2.2.1 := by
  rw [outsAt0_B m c t h0 h1]
  rfl

/-- A middle group leaves the short-format X block as it was. -/
theorem B_x (t : Fin cfg0.N) (h0 : ¬t.val % 64 = 0) (h1 : ¬t.val % 64 = 63) :
    (outsAt0 m c t.val t.isLt).2.2.2.2 = (prev m c t).2.2.2.2 := by
  rw [outsAt0_B m c t h0 h1]
  rfl

/-- The last group: the weights' sum. -/
theorem C_w (t : Fin cfg0.N) (h0 : ¬t.val % 64 = 0) (h1 : t.val % 64 = 63) :
    (outsAt0 m c t.val t.isLt).2.1 = k0_pay9 (iblk m c 1 t) (prev m c t).2.2.2.2 (prev m c t).2.2.2.1 (prev m c t).2.1 := by
  rw [outsAt0_C m c t h0 h1]
  dsimp only
  exact Pieces.sC0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (prev m c t).2.1 (prev m c t).2.2.1 (prev m c t).2.2.2.1 (prev m c t).2.2.2.2

/-- The last group: the weighted distances' sum. -/
theorem C_n (t : Fin cfg0.N) (h0 : ¬t.val % 64 = 0) (h1 : t.val % 64 = 63) :
    (outsAt0 m c t.val t.isLt).2.2.1 = k0_pay1 (prev m c t).2.2.1 (k0_pay10 (iblk m c 1 t) (prev m c t).2.2.2.2 (prev m c t).2.2.2.1) := by
  rw [outsAt0_C m c t h0 h1]
  dsimp only
  exact Pieces.sC1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (prev m c t).2.1 (prev m c t).2.2.1 (prev m c t).2.2.2.1 (prev m c t).2.2.2.2

/-- The last group leaves the squared norms as they were. -/
theorem C_sq (t : Fin cfg0.N) (h0 : ¬t.val % 64 = 0) (h1 : t.val % 64 = 63) :
    (outsAt0 m c t.val t.isLt).2.2.2.1 = (prev m c t).2.2.2.1 := by
  rw [outsAt0_C m c t h0 h1]
  rfl

/-- The last group leaves the short-format X block as it was. -/
theorem C_x (t : Fin cfg0.N) (h0 : ¬t.val % 64 = 0) (h1 : t.val % 64 = 63) :
    (outsAt0 m c t.val t.isLt).2.2.2.2 = (prev m c t).2.2.2.2 := by
  rw [outsAt0_C m c t h0 h1]
  rfl

/-- The last group: the output block is the capped quotient of the two sums. -/
theorem C_out (t : Fin cfg0.N) (h0 : ¬t.val % 64 = 0) (h1 : t.val % 64 = 63) :
    (outsAt0 m c t.val t.isLt).1 = k0_pay2 (k0_pay1 (prev m c t).2.2.1 (k0_pay10 (iblk m c 1 t) (prev m c t).2.2.2.2 (prev m c t).2.2.2.1)) (k0_pay9 (iblk m c 1 t) (prev m c t).2.2.2.2 (prev m c t).2.2.2.1 (prev m c t).2.1) := by
  rw [outsAt0_C m c t h0 h1]
  dsimp only
  exact Pieces.oC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (prev m c t).2.1 (prev m c t).2.2.1 (prev m c t).2.2.2.1 (prev m c t).2.2.2.2

end Cert.KernelIdeal.Steps

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.PayAt.lean ====
/-
  The body's pure terms read at an index, at the ideal values.

  With x the 1024 x 512 block of X's rows (kept in the short format between points, which at the ideal values is the
  same array), y the 512 x 512 block of Y's rows, and n2 the column of the x rows' squared norms:
  * the clamped squared distance of row p of x and row q of y is max (n2 p + |y_q|^2 - 2 x_p.y_q) 0 — a row sum of
    squares, laid as a column, transposed into a row and broadcast over the rows; the product of x with y's transpose
    taken by the matrix unit into a zero accumulator;
  * the weight is exp ((0 - that) / 1), and the weighted distance is the weight times the square root;
  * each running sum gains the sum over q of its term; the output is the capped quotient of the two sums.
-/
import proofs.«143901_j14620068675661_2_alg».proof.Proof.Gen.KernelIdeal.Skeleton
import proofs.«143901_j14620068675661_2_alg».proof.Proof.LibKeepdims
import proofs.«143901_j14620068675661_2_alg».proof.Proof.LibTransposedRhsMatmul
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.PayAt

open Idealize.ShloMosaic Idealize.ShloMosaic.ValueIdx Idealize.ShloMosaic.Keepdims Idealize.ShloMosaic.TransposedRhsMatmul
open Cert.KernelIdeal Cert.KernelIdeal.Gen

/-- The squared norms of the rows of a 1024 x 512 block, as a column. -/
theorem pay5_at (x0 : Vec Ideal S1024x512 .f32) (p : Fin 1024) :
    k0_pay5 (F := Ideal) x0 (ix2 p 0) = ∑ d : Fin 512, x0 (ix2 p d) * x0 (ix2 p d) := by
  unfold k0_pay5
  exact (congrFun (shapeCast_self _ _) _).trans ((cast_col_apply _ _ p 0).trans (rowSum2_apply _ _ _ _ _ p))

/-- The short-format copy of a block is the block. -/
theorem pay6_at (x0 : Vec Ideal S1024x512 .f32) (p : Fin 1024) (d : Fin 512) :
    k0_pay6 (F := Ideal) x0 (ix2 p d) = x0 (ix2 p d) := by
  unfold k0_pay6
  exact congrFun (shapeCast_self _ _) _

/-- The cleared buffers hold zero. -/
theorem pay3_at (p : Fin 1024) : k0_pay3 (F := Ideal) (ix2 p 0) = 0 := by
  unfold k0_pay3
  exact (congrFun (shapeCast_self _ _) _).trans Ideal.ofBits_zero_f32
theorem pay4_at (p : Fin 1024) : k0_pay4 (F := Ideal) (ix2 p 0) = 0 := by
  unfold k0_pay4
  exact (congrFun (shapeCast_self _ _) _).trans Ideal.ofBits_zero_f32

/-- The clamped squared distance of row p of the X block and row q of the Y block. -/
theorem pay7_at (y : Vec Ideal S512x512 .f32) (xb : Vec Ideal S1024x512 .bf16) (n2 : Vec Ideal S1024x1 .f32)
    (p : Fin 1024) (q : Fin 512) :
    k0_pay7 (F := Ideal) y xb n2 (ix2 p q)
      = max (n2 (ix2 p 0) + (∑ d : Fin 512, y (ix2 q d) * y (ix2 q d))
          - Ideal.ofBits .f32 0x40000000#32 * ∑ d : Fin 512, xb (ix2 p d) * y (ix2 q d)) 0 := by
  unfold k0_pay7
  simp only [maximumf_apply, subf_apply, addf_apply, mulf_apply, broadcast_apply]
  rw [bcast_col_apply, broadcastTo_1b_ab_apply, transpose_ix2_apply, cast_col_apply]
  exact congrArg₂ max
    (congrArg₂ (· - ·) (congrArg (n2 (ix2 p 0) + ·) (rowSum2_apply _ _ _ _ _ q))
      (congrArg (Ideal.ofBits .f32 0x40000000#32 * ·) (transposedRhsMatmul_apply none xb (truncf .bf16 y bitsLt_bf16_f32) p q)))
    Ideal.ofBits_zero_f32

/-- The pair's weight: the exponential of (zero minus the clamped squared distance) over one. -/
theorem pay8_at (y : Vec Ideal S512x512 .f32) (xb : Vec Ideal S1024x512 .bf16) (n2 : Vec Ideal S1024x1 .f32)
    (p : Fin 1024) (q : Fin 512) :
    k0_pay8 (F := Ideal) y xb n2 (ix2 p q)
      = Ideal.exp (Ideal.div (0 - k0_pay7 (F := Ideal) y xb n2 (ix2 p q)) (Ideal.ofBits .f32 0x3F800000#32)) := by
  unfold k0_pay8
  simp only [subf_apply, divf_apply, broadcast_apply, Ideal.ofBits_def, Ideal.ofBits_zero_f32]
  rfl

/-- The pair's weight times its distance. -/
theorem pay10_at (y : Vec Ideal S512x512 .f32) (xb : Vec Ideal S1024x512 .bf16) (n2 : Vec Ideal S1024x1 .f32)
    (p : Fin 1024) (q : Fin 512) :
    k0_pay10 (F := Ideal) y xb n2 (ix2 p q)
      = k0_pay8 (F := Ideal) y xb n2 (ix2 p q) * Ideal.sqrt (k0_pay7 (F := Ideal) y xb n2 (ix2 p q)) := by
  unfold k0_pay10
  rfl

/-- The weights' running sum gains the sum of the group's 512 weights. -/
theorem pay9_at (y : Vec Ideal S512x512 .f32) (xb : Vec Ideal S1024x512 .bf16) (n2 w0 : Vec Ideal S1024x1 .f32)
    (p : Fin 1024) :
    k0_pay9 (F := Ideal) y xb n2 w0 (ix2 p 0) = w0 (ix2 p 0) + ∑ q : Fin 512, k0_pay8 (F := Ideal) y xb n2 (ix2 p q) := by
  unfold k0_pay9
  refine (congrFun (shapeCast_self _ _) _).trans ?_
  rw [addf_apply, cast_col_apply]
  exact congrArg (_ + ·) (rowSum2_apply _ _ _ _ _ p)

/-- The weighted distances' running sum gains the sum of the group's 512 terms. -/
theorem pay1_at (n0 : Vec Ideal S1024x1 .f32) (v : FVec Ideal S1024x512 .f32) (p : Fin 1024) :
    k0_pay1 (F := Ideal) n0 v (ix2 p 0) = n0 (ix2 p 0) + ∑ q : Fin 512, v (ix2 p q) := by
  unfold k0_pay1
  refine (congrFun (shapeCast_self _ _) _).trans ?_
  rw [addf_apply, cast_col_apply]
  exact congrArg (_ + ·) (rowSum2_apply _ _ _ _ _ p)

/-- The output: the quotient of the two sums, the second enlarged by the small constant, capped at three. -/
theorem pay2_at (n w : Vec Ideal S1024x1 .f32) (p : Fin 1024) :
    k0_pay2 (F := Ideal) n w (ix2 p 0)
      = min (Ideal.div (n (ix2 p 0)) (w (ix2 p 0) + Ideal.ofBits .f32 0x322BCC77#32)) (Ideal.ofBits .f32 0x40400000#32) := by
  unfold k0_pay2
  rfl

end Cert.KernelIdeal.PayAt

end
-- ==== Proof.LibSoftmaxShift.lean ====
/-
  A softmax over a row of real numbers, read on the extended reals at the ideal values, does not change when one real
  number is added to every entry of the row.

  For a row a_0 … a_{n-1} of reals and a real s,
      exp (a_j + s) / ∑_c exp (a_c + s)  =  exp a_j / ∑_c exp a_c ,
  because exp (a + s) = exp a · exp s, the positive factor exp s leaves the sum as a common factor, and it cancels in
  the quotient. Every quantity is a real number: the sum of n ≥ 1 positive reals is positive, so the quotient is a
  quotient of reals and no corner of the extended reals' arithmetic is met.

  This is the law that joins a softmax computed with the row maximum subtracted first (s = −max) to one computed
  without it (s = 0), and a softmax of logits that carry a term constant along the row to one that drops it. Beside it:
  a finite sum of reals on the extended reals is the real sum; a quotient of reals by a nonzero real is the real
  quotient; and the greatest of finitely many reals, folded from −∞ over a nonempty index type, is a real number.
-/
import Idealize.ShloMosaic.PureOps.Ideal

noncomputable section

open scoped BigOperators

namespace Idealize.ShloMosaic.SoftmaxShift

open Idealize.ShloMosaic

/-- A finite sum of real numbers, taken on the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The ideal quotient of a real by a nonzero real is the real quotient. -/
theorem div_coe_coe (p q : ℝ) (hq : q ≠ 0) : Ideal.div (p : EReal) (q : EReal) = ((p / q : ℝ) : EReal) := by
  rw [Ideal.div_coe hq, ← EReal.coe_mul, mul_one_div]

/-- The row's normalizer is a positive real: a sum of exponentials over a row that has an entry. -/
theorem sum_exp_pos {n : Nat} (a : Fin n → ℝ) (j : Fin n) : 0 < ∑ c : Fin n, Real.exp (a c) :=
  Finset.sum_pos (fun c _ => Real.exp_pos (a c)) ⟨j, Finset.mem_univ j⟩

/-- A softmax of a row of reals read at entry j is a real number: the quotient of exp a_j by the positive normalizer. -/
theorem softmax_real {n : Nat} (a : Fin n → ℝ) (j : Fin n) :
    Ideal.div (Ideal.exp ((a j : ℝ) : EReal)) (∑ c : Fin n, Ideal.exp ((a c : ℝ) : EReal))
      = ((Real.exp (a j) / ∑ c : Fin n, Real.exp (a c) : ℝ) : EReal) := by
  simp only [Ideal.exp_coe]
  rw [coe_sum, div_coe_coe _ _ (sum_exp_pos a j).ne']

/-- Adding one real number to every entry of a row of reals leaves its softmax unchanged. -/
theorem softmax_shift {n : Nat} (a : Fin n → ℝ) (s : ℝ) (j : Fin n) :
    Ideal.div (Ideal.exp ((a j + s : ℝ) : EReal)) (∑ c : Fin n, Ideal.exp ((a c + s : ℝ) : EReal))
      = Ideal.div (Ideal.exp ((a j : ℝ) : EReal)) (∑ c : Fin n, Ideal.exp ((a c : ℝ) : EReal)) := by
  rw [softmax_real (fun c => a c + s) j, softmax_real a j]
  congr 1
  simp only [Real.exp_add]
  rw [← Finset.sum_mul, mul_div_mul_right _ _ (Real.exp_pos s).ne']

/-- The greatest of finitely many reals, folded from −∞ over a nonempty index type, is a real number. -/
theorem fold_max_real {ι : Type*} [Fintype ι] [Nonempty ι] (f : ι → EReal) (hf : ∀ k, ∃ r : ℝ, f k = r) :
    ∃ r : ℝ, (Finset.univ : Finset ι).fold max ⊥ f = r := by
  have hlt : (Finset.univ : Finset ι).fold max ⊥ f < ⊤ := by
    rw [Finset.fold_max_lt]
    refine ⟨bot_lt_top, fun k _ => ?_⟩
    obtain ⟨r, hr⟩ := hf k
    rw [hr]; exact EReal.coe_lt_top r
  have hgt : ⊥ < (Finset.univ : Finset ι).fold max ⊥ f := by
    rw [Finset.lt_fold_max]
    obtain ⟨k⟩ := ‹Nonempty ι›
    obtain ⟨r, hr⟩ := hf k
    exact Or.inr ⟨k, Finset.mem_univ k, by rw [hr]; exact EReal.bot_lt_coe r⟩
  exact ⟨_, (EReal.coe_toReal hlt.ne hgt.ne').symm⟩

end Idealize.ShloMosaic.SoftmaxShift

end
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.Spec.lean ====
/-
  The statistic both programs compute, written once as a function of the two point clouds.

  X holds 2048 points and Y 32768 points, each of 512 coordinates. For a pair (b, k) the squared distance is taken
  from the expansion |x|^2 + |y|^2 - 2 x.y and clamped below at zero; its square root is the distance, and the pair's
  weight is the exponential of minus the squared distance. Point b's value is the weighted mean of its distances to
  all of Y, the normalizer enlarged by a small positive constant, capped at three; the result is minus the mean of
  these 2048 values.

  The two programs differ in three places, and this file holds the three laws that join them when every coordinate is
  a real number:
  * one takes the exponent from the clamped squared distance d, the other squares the distance again: (sqrt d)^2 = d
    for a real d >= 0;
  * one divides the sum of weight times distance by the normalizer once, the other divides every weight by the
    normalizer first: a real, nonzero normalizer moves across the sum;
  * one adds the columns of Y up in 64 groups of 512, one group after the other.
-/
import Idealize.ShloMosaic.PureOps.Ideal
import Idealize.ShloMosaic.PureOps.Ideal.Laws
import Idealize.ShloMosaic.Lib.ValueIdx
import proofs.«143901_j14620068675661_2_alg».proof.Proof.LibSoftmaxShift
import proofs.«143901_j14620068675661_2_alg».proof.Proof.LibSumSplit

noncomputable section

open scoped BigOperators

namespace SoftDist

open Idealize.ShloMosaic Idealize.ShloMosaic.ValueIdx

abbrev SX : Shape := ⟨2, ![2048, 512]⟩
abbrev SY : Shape := ⟨2, ![32768, 512]⟩

/-- The float constants of the two programs, as the extended reals their bit patterns denote: 1, 2, 3, the small
    constant added to the normalizer, and 2048. -/
abbrev c1 : EReal := Ideal.ofBits .f32 0x3F800000#32
abbrev c2 : EReal := Ideal.ofBits .f32 0x40000000#32
abbrev c3 : EReal := Ideal.ofBits .f32 0x40400000#32
abbrev ceps : EReal := Ideal.ofBits .f32 0x322BCC77#32
abbrev cN : EReal := Ideal.ofBits .f32 0x45000000#32

theorem c1_eq : c1 = ((1 : ℝ) : EReal) := by
  have h1 : (BitVec.extractLsb' 23 8 (0x3F800000#32)).toNat = 127 := by decide
  have h2 : (BitVec.extractLsb' 0 23 (0x3F800000#32)).toNat = 0 := by decide
  have h3 : (BitVec.extractLsb' (8 + 23) 1 (0x3F800000#32) == 1#1) = false := by decide
  simp only [c1, Ideal.ofBits, Ideal.ieee, h1, h2, h3]
  norm_num

theorem c2_real : ∃ r : ℝ, c2 = r := by
  have h1 : (BitVec.extractLsb' 23 8 (0x40000000#32)).toNat = 128 := by decide
  have h2 : (BitVec.extractLsb' 0 23 (0x40000000#32)).toNat = 0 := by decide
  have h3 : (BitVec.extractLsb' (8 + 23) 1 (0x40000000#32) == 1#1) = false := by decide
  refine ⟨2, ?_⟩
  simp only [c2, Ideal.ofBits, Ideal.ieee, h1, h2, h3]
  norm_num

theorem ceps_pos : ∃ e : ℝ, ceps = e ∧ 0 < e := by
  have h1 : (BitVec.extractLsb' 23 8 (0x322BCC77#32)).toNat = 100 := by decide
  have h2 : (BitVec.extractLsb' 0 23 (0x322BCC77#32)).toNat = 2870391 := by decide
  have h3 : (BitVec.extractLsb' (8 + 23) 1 (0x322BCC77#32) == 1#1) = false := by decide
  simp only [ceps, Ideal.ofBits, Ideal.ieee, h1, h2, h3]
  norm_num

/-! ## The statistic -/

section
variable (X : SX.Idx → EReal) (Y : SY.Idx → EReal)

/-- |x_b|^2 and |y_k|^2. -/
def sqX (b : Fin 2048) : EReal := ∑ d : Fin 512, X (ix2 b d) * X (ix2 b d)
def sqY (k : Fin 32768) : EReal := ∑ d : Fin 512, Y (ix2 k d) * Y (ix2 k d)
/-- x_b . y_k. -/
def cross (b : Fin 2048) (k : Fin 32768) : EReal := ∑ d : Fin 512, X (ix2 b d) * Y (ix2 k d)
/-- The squared distance of the pair, clamped below at zero. -/
def d2 (b : Fin 2048) (k : Fin 32768) : EReal := max (sqX X b + sqY Y k - c2 * cross X Y b k) 0
/-- The distance of the pair. -/
def dist (b : Fin 2048) (k : Fin 32768) : EReal := Ideal.sqrt (d2 X Y b k)
/-- The pair's weight, its exponent taken from the clamped squared distance; -/
def wK (b : Fin 2048) (k : Fin 32768) : EReal := Ideal.exp (Ideal.div (0 - d2 X Y b k) c1)
/-- and with the exponent taken from the distance squared again. -/
def wR (b : Fin 2048) (k : Fin 32768) : EReal := Ideal.exp (Ideal.div (-(dist X Y b k * dist X Y b k)) c1)
/-- Point b's capped weighted mean distance, the quotient taken once; -/
def outK (b : Fin 2048) : EReal :=
  min (Ideal.div (∑ k : Fin 32768, wK X Y b k * dist X Y b k) (∑ k : Fin 32768, wK X Y b k + ceps)) c3
/-- and with every weight normalized first. -/
def outR (b : Fin 2048) : EReal :=
  min (∑ k : Fin 32768, Ideal.div (wR X Y b k) (∑ k' : Fin 32768, wR X Y b k' + ceps) * dist X Y b k) c3
/-- Minus the mean over the 2048 points, in the two forms. -/
def resK : EReal := -(Ideal.div (∑ b : Fin 2048, outK X Y b) cN)
def resR : EReal := -(Ideal.div (∑ b : Fin 2048, outR X Y b) cN)

/-! ## Real coordinates: the two forms agree -/

/-- A finite sum of extended reals that are all real numbers is a real number. -/
theorem sum_real {ι : Type*} [Fintype ι] (f : ι → EReal) (h : ∀ k, ∃ r : ℝ, f k = r) : ∃ r : ℝ, ∑ k, f k = r := by
  choose g hg using h
  exact ⟨∑ k, g k, by rw [← SoftmaxShift.coe_sum]; exact Finset.sum_congr rfl fun k _ => hg k⟩

theorem mul_real (u v : EReal) (hu : ∃ r : ℝ, u = r) (hv : ∃ r : ℝ, v = r) : ∃ r : ℝ, u * v = r := by
  obtain ⟨p, rfl⟩ := hu; obtain ⟨q, rfl⟩ := hv; exact ⟨p * q, (EReal.coe_mul p q).symm⟩

variable (hX : ∀ i, ∃ r : ℝ, X i = r) (hY : ∀ i, ∃ r : ℝ, Y i = r)
include hX hY

/-- With real coordinates the clamped squared distance is a real number, and not negative. -/
theorem d2_real (b : Fin 2048) (k : Fin 32768) : ∃ r : ℝ, 0 ≤ r ∧ d2 X Y b k = r := by
  obtain ⟨a, ha⟩ := sum_real (fun d : Fin 512 => X (ix2 b d) * X (ix2 b d)) (fun d => mul_real _ _ (hX _) (hX _))
  obtain ⟨a', ha'⟩ := sum_real (fun d : Fin 512 => Y (ix2 k d) * Y (ix2 k d)) (fun d => mul_real _ _ (hY _) (hY _))
  obtain ⟨t, ht⟩ := sum_real (fun d : Fin 512 => X (ix2 b d) * Y (ix2 k d)) (fun d => mul_real _ _ (hX _) (hY _))
  obtain ⟨two, h2⟩ := c2_real
  refine ⟨max (a + a' - two * t) 0, le_max_right _ _, ?_⟩
  unfold d2 sqX sqY cross
  rw [ha, ha', ht, h2, ← EReal.coe_mul, ← EReal.coe_add, ← EReal.coe_sub,
    show (0 : EReal) = ((0 : ℝ) : EReal) from EReal.coe_zero.symm]
  exact (EReal.coe_strictMono.monotone.map_max).symm

/-- So the distance is its real square root, and both forms of the weight are the real exponential of minus it. -/
theorem pair_real (b : Fin 2048) (k : Fin 32768) :
    ∃ r : ℝ, dist X Y b k = (Real.sqrt r : ℝ) ∧ wK X Y b k = (Real.exp (-r) : ℝ) ∧ wR X Y b k = (Real.exp (-r) : ℝ) := by
  obtain ⟨r, hr0, hr⟩ := d2_real X Y hX hY b k
  have hd : dist X Y b k = (Real.sqrt r : ℝ) := by
    unfold dist; rw [hr, Ideal.sqrt_coe, if_neg (not_lt.2 hr0)]
  refine ⟨r, hd, ?_, ?_⟩
  · unfold wK
    rw [hr, c1_eq, zero_sub, ← EReal.coe_neg, SoftmaxShift.div_coe_coe _ _ one_ne_zero, div_one, Ideal.exp_coe]
  · unfold wR
    rw [hd, ← EReal.coe_mul, Real.mul_self_sqrt hr0, c1_eq, ← EReal.coe_neg, SoftmaxShift.div_coe_coe _ _ one_ne_zero,
      div_one, Ideal.exp_coe]

/-- The two forms of a point's value agree: the weights are the same positive reals, and the real, positive normalizer
    moves across the sum. -/
theorem outK_eq_outR (b : Fin 2048) : outK X Y b = outR X Y b := by
  choose r hdist hwK hwR using fun k => pair_real X Y hX hY b k
  obtain ⟨e, he, hepos⟩ := ceps_pos
  have hD : (∑ k : Fin 32768, Real.exp (-(r k))) + e ≠ 0 :=
    (add_pos_of_nonneg_of_pos (Finset.sum_nonneg fun k _ => (Real.exp_pos _).le) hepos).ne'
  unfold outK outR
  refine congrArg (fun z => min z c3) ?_
  simp only [hwK, hwR, hdist, he]
  simp only [← EReal.coe_mul, SoftmaxShift.coe_sum, ← EReal.coe_add]
  simp only [SoftmaxShift.div_coe_coe _ _ hD, ← EReal.coe_mul, SoftmaxShift.coe_sum]
  refine congrArg _ ?_
  rw [Finset.sum_div]
  exact Finset.sum_congr rfl fun k _ => by ring

theorem resK_eq_resR : resK X Y = resR X Y := by
  unfold resK resR
  rw [Finset.sum_congr rfl fun b _ => outK_eq_outR X Y hX hY b]

end

/-! ## Columns in 64 groups of 512 -/

/-- Column q of group j (past the last group the number wraps, which no use reaches). -/
def col (j : ℕ) (q : Fin 512) : Fin 32768 := ⟨(512 * j + q.val) % 32768, Nat.mod_lt _ (by decide)⟩

/-- Row p of the block that grid point t works on (points 0..63 the first 1024 rows, 64..127 the last). -/
def row (t : ℕ) (p : Fin 1024) : Fin 2048 := ⟨(1024 * (t / 64) + p.val) % 2048, Nat.mod_lt _ (by decide)⟩

/-- Adding up, group after group from zero, the sums over each group's 512 columns gives the sum over all columns. -/
theorem acc_groups (g : Fin 32768 → EReal) :
    SumSplit.accUpTo (fun j => ∑ q : Fin 512, g (col j q)) 64 = ∑ k : Fin 32768, g k := by
  rw [SumSplit.accUpTo_eq_sum]
  refine ((SumSplit.sum_blocks 64 512 (g : Fin (64 * 512) → EReal)).trans ?_).symm
  refine Finset.sum_congr rfl fun kk _ => Finset.sum_congr rfl fun s _ => congrArg g (Fin.ext ?_)
  show 512 * kk.val + s.val = (512 * kk.val + s.val) % 32768
  have := kk.isLt; have := s.isLt; omega

section
variable (X : SX.Idx → EReal) (Y : SY.Idx → EReal)

/-- The running sums a point's row holds after `n` groups: of the weights, and of weight times distance. -/
def accW (b : Fin 2048) (n : ℕ) : EReal := SumSplit.accUpTo (fun j => ∑ q : Fin 512, wK X Y b (col j q)) n
def accN (b : Fin 2048) (n : ℕ) : EReal :=
  SumSplit.accUpTo (fun j => ∑ q : Fin 512, wK X Y b (col j q) * dist X Y b (col j q)) n

/-- After all 64 groups the capped quotient of the running sums is the point's value. -/
theorem out_of_acc (b : Fin 2048) :
    min (Ideal.div (accN X Y b 64) (accW X Y b 64 + ceps)) c3 = outK X Y b := by
  unfold accN accW outK
  rw [acc_groups (fun k => wK X Y b k * dist X Y b k), acc_groups (fun k => wK X Y b k)]

end

end SoftDist

end
-- ==== Proof.Accum.lean ====
/-
  What the kernel's carried buffers hold after every grid point, as functions of the two argument arrays.

  The grid runs over 2 blocks of 1024 rows of X and, inside each, over 64 groups of 512 rows of Y; point t works on row
  block t / 64 and column group t % 64. After point t, for row p of the block (row b of X):
  * the squared-norm buffer holds |x_b|^2 and the short-format buffer holds x_b (filled at the block's first group and
    then left alone);
  * the two running sums hold the sums, over the groups 0 .. t % 64 taken one after the other from zero, of the
    group's weights and of its weights times distances;
  * at the block's last group the output block holds the capped quotient of the two sums, which is point b's value.
  Proved by induction on the point: the first group of a block starts the sums from the cleared buffers, every later
  group adds its own sum to what the point before left.
-/
import proofs.«143901_j14620068675661_2_alg».proof.Proof.Steps
import proofs.«143901_j14620068675661_2_alg».proof.Proof.PayAt
import proofs.«143901_j14620068675661_2_alg».proof.Proof.Spec

set_option maxRecDepth 16384

noncomputable section

open scoped BigOperators

namespace Cert.KernelIdeal.Accum

open Idealize.ShloMosaic Idealize.ShloMosaic.TcCoe Idealize.ShloMosaic.ValueIdx Idealize.SL.Sem
open Cert.KernelIdeal Cert.KernelIdeal.Gen SoftDist

/-! ## One group's contribution, from a Y block and the carried X data -/

section group
variable (X : SX.Idx → EReal) (Y : SY.Idx → EReal)
variable (y : Vec Ideal S512x512 .f32) (xb : Vec Ideal S1024x512 .bf16) (n2 : Vec Ideal S1024x1 .f32)
variable (b : Fin 2048) (j : ℕ) (p : Fin 1024)
variable (hxb : ∀ d, xb (ix2 p d) = X (ix2 b d)) (hn2 : n2 (ix2 p 0) = sqX X b)
variable (hy : ∀ q d, y (ix2 q d) = Y (ix2 (col j q) d))
include hxb hn2 hy

/-- Row p against row q of the group: the clamped squared distance of X's row b and Y's row (j, q). -/
theorem pay7_pair (q : Fin 512) : k0_pay7 (F := Ideal) y xb n2 (ix2 p q) = d2 X Y b (col j q) := by
  rw [PayAt.pay7_at, hn2]
  unfold d2 sqY cross
  simp only [hxb, hy]

/-- Its weight. -/
theorem pay8_pair (q : Fin 512) : k0_pay8 (F := Ideal) y xb n2 (ix2 p q) = wK X Y b (col j q) := by
  rw [PayAt.pay8_at, pay7_pair X Y y xb n2 b j p hxb hn2 hy q]
  rfl

/-- Its weight times its distance. -/
theorem pay10_pair (q : Fin 512) :
    k0_pay10 (F := Ideal) y xb n2 (ix2 p q) = wK X Y b (col j q) * dist X Y b (col j q) := by
  rw [PayAt.pay10_at, pay8_pair X Y y xb n2 b j p hxb hn2 hy q, pay7_pair X Y y xb n2 b j p hxb hn2 hy q]
  rfl

/-- A running sum of weights that stood at the first j groups' total stands, after group j, at the first j + 1. -/
theorem step_w (w0 : Vec Ideal S1024x1 .f32) (hw0 : w0 (ix2 p 0) = accW X Y b j) :
    k0_pay9 (F := Ideal) y xb n2 w0 (ix2 p 0) = accW X Y b (j + 1) := by
  rw [PayAt.pay9_at, hw0]
  show _ = accW X Y b j + _
  exact congrArg _ (Finset.sum_congr rfl fun q _ => pay8_pair X Y y xb n2 b j p hxb hn2 hy q)

/-- The same for the running sum of weights times distances. -/
theorem step_n (n0 : Vec Ideal S1024x1 .f32) (hn0 : n0 (ix2 p 0) = accN X Y b j) :
    k0_pay1 (F := Ideal) n0 (k0_pay10 (F := Ideal) y xb n2) (ix2 p 0) = accN X Y b (j + 1) := by
  rw [PayAt.pay1_at, hn0]
  show _ = accN X Y b j + _
  exact congrArg _ (Finset.sum_congr rfl fun q _ => pay10_pair X Y y xb n2 b j p hxb hn2 hy q)

end group

/-! ## The blocks the windows read -/

variable (m : (ℓ : Loc nD τ sig) → Buf (Elt Ideal) ℓ) (c : Dev nD)

/-- The two argument arrays. -/
abbrev argX : SX.Idx → EReal := m ((c : Thread nD τ).loc main_arg0)
abbrev argY : SY.Idx → EReal := m ((c : Thread nD τ).loc main_arg1)

/-- Point t reads row block t / 64 of X and row group t % 64 of Y, both from column 0. -/
theorem idx_x : ∀ t : Fin cfg0.N, win0_0.index t 0 = t.val / 64 ∧ win0_0.index t 1 = 0 :=
  (by decide +kernel : ∀ t : Fin grid0.N, win0_0.index t 0 = t.val / 64 ∧ win0_0.index t 1 = 0)
theorem idx_y : ∀ t : Fin cfg0.N, win0_1.index t 0 = t.val % 64 ∧ win0_1.index t 1 = 0 :=
  (by decide +kernel : ∀ t : Fin grid0.N, win0_1.index t 0 = t.val % 64 ∧ win0_1.index t 1 = 0)

theorem lt_N (t : Fin cfg0.N) : t.val < 128 := lt_of_lt_of_eq t.isLt (show cfg0.N = 128 from N_0)

/-- Entry (p, d) of the X block at point t is X's entry (row t p, d). -/
theorem xblk_at (t : Fin cfg0.N) (p : Fin 1024) (d : Fin 512) :
    (iblk m c 0 t : Vec Ideal S1024x512 .f32) (ix2 p d) = argX m c (ix2 (row t.val p) d) := by
  unfold iblk
  rw [View.read_apply]
  show m ((c : Thread nD τ).loc main_arg0) _ = m ((c : Thread nD τ).loc main_arg0) _
  refine congrArg _ (funext fun a => Fin.ext ?_)
  have hN := lt_N t
  have hp := p.isLt
  match a with
  | ⟨0, _⟩ =>
    show win0_0.index t 0 * 1024 + 1 * p.val = (1024 * (t.val / 64) + p.val) % 2048
    rw [(idx_x t).1]; omega
  | ⟨1, _⟩ =>
    show win0_0.index t 1 * 512 + 1 * d.val = d.val
    rw [(idx_x t).2]; omega

/-- Entry (q, d) of the Y block at point t is Y's entry (col (t % 64) q, d). -/
theorem yblk_at (t : Fin cfg0.N) (q : Fin 512) (d : Fin 512) :
    (iblk m c 1 t : Vec Ideal S512x512 .f32) (ix2 q d) = argY m c (ix2 (col (t.val % 64) q) d) := by
  unfold iblk
  rw [View.read_apply]
  show m ((c : Thread nD τ).loc main_arg1) _ = m ((c : Thread nD τ).loc main_arg1) _
  refine congrArg _ (funext fun a => Fin.ext ?_)
  have hq := q.isLt
  match a with
  | ⟨0, _⟩ =>
    show win0_1.index t 0 * 512 + 1 * q.val = (512 * (t.val % 64) + q.val) % 32768
    rw [(idx_y t).1]; omega
  | ⟨1, _⟩ =>
    show win0_1.index t 1 * 512 + 1 * d.val = d.val
    rw [(idx_y t).2]; omega

end Cert.KernelIdeal.Accum

end
-- ==== Proof.Invariant.lean ====
/-
  The induction over the grid points: after every point the carried buffers hold the running sums, the squared norms
  and the rows described below, and after the last column group of a row block the output block holds the rows'
  values.
-/
import proofs.«143901_j14620068675661_2_alg».proof.Proof.Accum

set_option maxRecDepth 16384

noncomputable section

open scoped BigOperators

namespace Cert.KernelIdeal.Accum

open Idealize.ShloMosaic Idealize.ShloMosaic.TcCoe Idealize.ShloMosaic.ValueIdx Idealize.SL.Sem
open Cert.KernelIdeal Cert.KernelIdeal.Gen SoftDist

variable (m : (ℓ : Loc nD τ sig) → Buf (Elt Ideal) ℓ) (c : Dev nD)

/-- Before any group the running sums are zero. -/
theorem accW_zero (X : SX.Idx → EReal) (Y : SY.Idx → EReal) (b : Fin 2048) : accW X Y b 0 = 0 := rfl
theorem accN_zero (X : SX.Idx → EReal) (Y : SY.Idx → EReal) (b : Fin 2048) : accN X Y b 0 = 0 := rfl

/-- What the four carried buffers hold after point n, row by row: the sums of weights and of weights times distances
    over the column groups 0 .. n % 64 of the row's row of X, that row's squared norm, and the row itself. -/
structure Holds (n : ℕ) (h : n < cfg0.N) : Prop where
  w : ∀ p : Fin 1024, (outsAt0 m c n h).2.1 (ix2 p 0) = accW (argX m c) (argY m c) (row n p) (n % 64 + 1)
  nn : ∀ p : Fin 1024, (outsAt0 m c n h).2.2.1 (ix2 p 0) = accN (argX m c) (argY m c) (row n p) (n % 64 + 1)
  sq : ∀ p : Fin 1024, (outsAt0 m c n h).2.2.2.1 (ix2 p 0) = sqX (argX m c) (row n p)
  x : ∀ (p : Fin 1024) (d : Fin 512), (outsAt0 m c n h).2.2.2.2 (ix2 p d) = argX m c (ix2 (row n p) d)

/-- At the first column group of a row block the buffers are filled from the X block and the sums start from zero. -/
theorem holds_first (t : Fin cfg0.N) (h0 : t.val % 64 = 0) : Holds m c t.val t.isLt := by
  have h1 : ¬t.val % 64 = 63 := by omega
  have hx : ∀ (p : Fin 1024) (d : Fin 512),
      k0_pay6 (F := Ideal) (iblk m c 0 t) (ix2 p d) = argX m c (ix2 (row t.val p) d) :=
    fun p d => (PayAt.pay6_at (iblk m c 0 t) p d).trans (xblk_at m c t p d)
  have hsq : ∀ p : Fin 1024, k0_pay5 (F := Ideal) (iblk m c 0 t) (ix2 p 0) = sqX (argX m c) (row t.val p) := fun p => by
    rw [PayAt.pay5_at]
    unfold sqX
    exact Finset.sum_congr rfl fun d _ => by rw [xblk_at]
  have hy : ∀ (q d : Fin 512), (iblk m c 1 t : Vec Ideal S512x512 .f32) (ix2 q d) = argY m c (ix2 (col 0 q) d) :=
    fun q d => by rw [yblk_at, h0]
  refine ⟨fun p => ?_, fun p => ?_, fun p => ?_, fun p d => ?_⟩
  · rw [Steps.A_w m c t h0 h1, h0]
    exact step_w (argX m c) (argY m c) (iblk m c 1 t) (k0_pay6 (iblk m c 0 t)) (k0_pay5 (iblk m c 0 t)) (row t.val p) 0 p
      (hx p) (hsq p) hy (k0_pay3 (F := Ideal)) ((PayAt.pay3_at p).trans (accW_zero _ _ _).symm)
  · rw [Steps.A_n m c t h0 h1, h0]
    exact step_n (argX m c) (argY m c) (iblk m c 1 t) (k0_pay6 (iblk m c 0 t)) (k0_pay5 (iblk m c 0 t)) (row t.val p) 0 p
      (hx p) (hsq p) hy (k0_pay4 (F := Ideal)) ((PayAt.pay4_at p).trans (accN_zero _ _ _).symm)
  · rw [Steps.A_sq m c t h0 h1]; exact hsq p
  · rw [Steps.A_x m c t h0 h1]; exact hx p d

/-- At a later group of the block every sum gains the group's, over the X data the point before left in place. -/
theorem holds_later (n : ℕ) (h : n + 1 < cfg0.N) (h0 : ¬(n + 1) % 64 = 0)
    (ih : Holds m c n (Nat.lt_of_succ_lt h)) : Holds m c (n + 1) h := by
  have hrow : ∀ p : Fin 1024, row (n + 1) p = row n p := fun p => Fin.ext (by
    show (1024 * ((n + 1) / 64) + p.val) % 2048 = (1024 * (n / 64) + p.val) % 2048
    rw [show (n + 1) / 64 = n / 64 by omega])
  have hmod : (n + 1) % 64 = n % 64 + 1 := by omega
  have hx : ∀ (p : Fin 1024) (d : Fin 512), (Steps.prev m c ⟨n + 1, h⟩).2.2.2.2 (ix2 p d) = argX m c (ix2 (row (n + 1) p) d) :=
    fun p d => by rw [hrow]; exact ih.x p d
  have hsq : ∀ p : Fin 1024, (Steps.prev m c ⟨n + 1, h⟩).2.2.2.1 (ix2 p 0) = sqX (argX m c) (row (n + 1) p) :=
    fun p => by rw [hrow]; exact ih.sq p
  have hy : ∀ (q d : Fin 512),
      (iblk m c 1 ⟨n + 1, h⟩ : Vec Ideal S512x512 .f32) (ix2 q d) = argY m c (ix2 (col (n % 64 + 1) q) d) :=
    fun q d => by rw [yblk_at]; show argY m c (ix2 (col ((n + 1) % 64) q) d) = _; rw [hmod]
  by_cases h1 : (n + 1) % 64 = 63
  ·
    refine ⟨fun p => ?_, fun p => ?_, fun p => ?_, fun p d => ?_⟩
    · rw [Steps.C_w m c ⟨n + 1, h⟩ h0 h1, hmod]
      exact step_w (argX m c) (argY m c) (iblk m c 1 ⟨n + 1, h⟩) (Steps.prev m c ⟨n + 1, h⟩).2.2.2.2 (Steps.prev m c ⟨n + 1, h⟩).2.2.2.1 (row (n + 1) p) (n % 64 + 1) p
        (hx p) (hsq p) hy (Steps.prev m c ⟨n + 1, h⟩).2.1 (by rw [hrow]; exact ih.w p)
    · rw [Steps.C_n m c ⟨n + 1, h⟩ h0 h1, hmod]
      exact step_n (argX m c) (argY m c) (iblk m c 1 ⟨n + 1, h⟩) (Steps.prev m c ⟨n + 1, h⟩).2.2.2.2 (Steps.prev m c ⟨n + 1, h⟩).2.2.2.1 (row (n + 1) p) (n % 64 + 1) p
        (hx p) (hsq p) hy (Steps.prev m c ⟨n + 1, h⟩).2.2.1 (by rw [hrow]; exact ih.nn p)
    · rw [Steps.C_sq m c ⟨n + 1, h⟩ h0 h1]; exact hsq p
    · rw [Steps.C_x m c ⟨n + 1, h⟩ h0 h1]; exact hx p d
  ·
    refine ⟨fun p => ?_, fun p => ?_, fun p => ?_, fun p d => ?_⟩
    · rw [Steps.B_w m c ⟨n + 1, h⟩ h0 h1, hmod]
      exact step_w (argX m c) (argY m c) (iblk m c 1 ⟨n + 1, h⟩) (Steps.prev m c ⟨n + 1, h⟩).2.2.2.2 (Steps.prev m c ⟨n + 1, h⟩).2.2.2.1 (row (n + 1) p) (n % 64 + 1) p
        (hx p) (hsq p) hy (Steps.prev m c ⟨n + 1, h⟩).2.1 (by rw [hrow]; exact ih.w p)
    · rw [Steps.B_n m c ⟨n + 1, h⟩ h0 h1, hmod]
      exact step_n (argX m c) (argY m c) (iblk m c 1 ⟨n + 1, h⟩) (Steps.prev m c ⟨n + 1, h⟩).2.2.2.2 (Steps.prev m c ⟨n + 1, h⟩).2.2.2.1 (row (n + 1) p) (n % 64 + 1) p
        (hx p) (hsq p) hy (Steps.prev m c ⟨n + 1, h⟩).2.2.1 (by rw [hrow]; exact ih.nn p)
    · rw [Steps.B_sq m c ⟨n + 1, h⟩ h0 h1]; exact hsq p
    · rw [Steps.B_x m c ⟨n + 1, h⟩ h0 h1]; exact hx p d

/-- The buffers' contents after every point. -/
theorem holds : ∀ (n : ℕ) (h : n < cfg0.N), Holds m c n h
  | 0, h => holds_first m c ⟨0, h⟩ rfl
  | n + 1, h => by
    by_cases h0 : (n + 1) % 64 = 0
    · exact holds_first m c ⟨n + 1, h⟩ h0
    · exact holds_later m c n h h0 (holds n (Nat.lt_of_succ_lt h))

/-- After the last column group of a row block the output block holds, row by row, the rows' values. -/
theorem out_last (t : Fin cfg0.N) (h63 : t.val % 64 = 63) (p : Fin 1024) :
    (outsAt0 m c t.val t.isLt).1 (ix2 p 0) = outK (argX m c) (argY m c) (row t.val p) := by
  have h0 : ¬t.val % 64 = 0 := by omega
  rw [Steps.C_out m c t h0 h63, PayAt.pay2_at, ← Steps.C_n m c t h0 h63, ← Steps.C_w m c t h0 h63,
    (holds m c t.val t.isLt).w p, (holds m c t.val t.isLt).nn p, h63]
  exact out_of_acc (argX m c) (argY m c) (row t.val p)

end Cert.KernelIdeal.Accum

end
-- ==== Proof.Final.lean ====
/-
  From the blocks the kernel writes back to the result column.

  The kernel's one output is a column of 2048 entries, written back in two blocks of 1024 rows: at the last column
  group of each row block, that is at the points t with t % 64 = 63. Granted that the block written back at such a
  point holds, at row p, the capped weighted mean distance of point `row t p` of X, the block is the restriction of
  one function of the whole column — entry b is point b's value — to the rows of row block t / 64; the two blocks
  cover the column, so after the run the column is that function.
-/
import proofs.«143901_j14620068675661_2_alg».proof.Proof.Accum
import Idealize.ShloMosaic.Lib.Pipeline.Value

set_option maxRecDepth 16384

noncomputable section

open scoped BigOperators

namespace Cert.KernelIdeal.Final

open Idealize.ShloMosaic Idealize.ShloMosaic.TcCoe Idealize.ShloMosaic.ValueIdx Idealize.SL.Sem
open Cert.KernelIdeal Cert.KernelIdeal.Gen Cert.KernelIdeal.Accum SoftDist

variable (m : (ℓ : Loc nD τ sig) → Buf (Elt Ideal) ℓ) (c : Dev nD)

/-- The result column as one function of the two argument arrays: entry b is point b's value. -/
def G : S2048x1.Idx → EReal := fun i => outK (argX m c) (argY m c) (i 0)

/-- Point t writes back row block t / 64 of the column, from column 0. -/
theorem idx_out : ∀ t : Fin cfg0.N, win0_2.index t 0 = t.val / 64 ∧ win0_2.index t 1 = 0 :=
  (by decide +kernel : ∀ t : Fin grid0.N, win0_2.index t 0 = t.val / 64 ∧ win0_2.index t 1 = 0)

/-- An index of the column is in point t's block iff each coordinate is in the block's range on its axis. -/
theorem mem_blk (t : Fin cfg0.N) (i : S2048x1.Idx) :
    i ∈ ((cfg0.win 2).blk t).view.set ↔
      ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- Every row of the column lies in the block written back at the last column group of its row block. -/
theorem cover (i : S2048x1.Idx) :
    ∃ t : Fin cfg0.N, (cfg0.win 2).flush t = true ∧ i ∈ ((cfg0.win 2).blk t).view.set := by
  have hi0 : (i 0).val < 2048 := (i 0).isLt
  have hi1 : (i 1).val < 1 := (i 1).isLt
  have hN : cfg0.N = 128 := N_0
  obtain ⟨t, ht⟩ : ∃ t : Fin cfg0.N, t.val = 64 * ((i 0).val / 1024) + 63 := ⟨⟨_, by rw [hN]; omega⟩, rfl⟩
  refine ⟨t, (flush0_2 t).mpr (by omega), ?_⟩
  rw [mem_blk]
  intro a
  match a with
  | ⟨0, _⟩ =>
    show win0_2.index t 0 * 1024 ≤ (i 0).val ∧ (i 0).val < win0_2.index t 0 * 1024 + 1024
    rw [(idx_out t).1]; omega
  | ⟨1, _⟩ =>
    show win0_2.index t 1 * 1 ≤ (i 1).val ∧ (i 1).val < win0_2.index t 1 * 1 + 1
    rw [(idx_out t).2]; omega

variable (hout : ∀ t : Fin cfg0.N, t.val % 64 = 63 → ∀ p : Fin 1024,
  (outsAt0 m c t.val t.isLt).1 (ix2 p 0) = outK (argX m c) (argY m c) (row t.val p))
include hout

/-- What a flushing point writes back is its block of the column function. -/
theorem flushed_eq (t : Fin cfg0.N) (hf : (cfg0.win 2).flush t = true) :
    (dats m 0 c).flushed 2 t = ((cfg0.win 2).blk t).view.read (Elt Ideal) (G m c) := by
  show (cfg0.win 2).cut (grid0.coords t) ((dats m 0 c).after 2 t) = _
  rw [after0_2]
  funext y
  obtain ⟨p, z, rfl⟩ : ∃ (p : Fin 1024) (z : Fin 1), y = ix2 p z := ⟨y 0, y 1, eq_ix2 y⟩
  obtain rfl : z = 0 := Subsingleton.elim _ _
  rw [View.read_apply]
  refine (show _ = (outsAt0 m c t.val t.isLt).1 (ix2 p 0) from rfl).trans ?_
  rw [hout t ((flush0_2 t).mp hf) p]
  unfold G
  refine congrArg (outK (argX m c) (argY m c)) (Fin.ext ?_)
  have hN := lt_N t
  have hp := p.isLt
  show (1024 * (t.val / 64) + p.val) % 2048 = win0_2.index t 0 * 1024 + 1 * p.val
  rw [(idx_out t).1]; omega

/-- So after the run the column holds every point's value. -/
theorem final : (dats m 0 c).arrAt 2 cfg0.N = G m c :=
  (dats m 0 c).arrAt_eq_of_cover 2 (G m c) (fun t hf => flushed_eq m c hout t hf) cover

end Cert.KernelIdeal.Final

end
-- ==== Proof.IdxSum.lean ====
/-
  A sum over a rank-1 index set is the sum over its coordinate.
-/
import Idealize.ShloMosaic.Lib.ValueIdx

noncomputable section

open scoped BigOperators

namespace IdxSum

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end IdxSum

end
-- ==== Proof.Tail.lean ====
/-
  What the kernel program's host operations after its region leave in the result.

  The region writes one value per point into a column of 2048 rows. The six host operations that follow view the column
  as a vector, add its entries up from the zero pattern, divide by the pattern of 2048 and negate. So the result, on the
  one index of the rank-0 shape, is minus the sum of the column's 2048 entries divided by 2048, whatever the buffers
  held before.
-/
import proofs.«143901_j14620068675661_2_alg».proof.Proof.Gen.KernelIdeal.Launch
import proofs.«143901_j14620068675661_2_alg».proof.Proof.Spec
import proofs.«143901_j14620068675661_2_alg».proof.Proof.IdxSum
import Idealize.ShloMosaic.Lib.StableHlo.Run
import Idealize.ShloMosaic.Lib.Pipeline.Value
import Idealize.ShloMosaic.PureOps.Ideal.Laws

noncomputable section

open scoped BigOperators

namespace Cert.KernelIdeal.Tail

open Cert.KernelIdeal Cert.KernelIdeal.Gen Idealize.ShloMosaic Idealize.ShloMosaic.TcCoe Idealize.ShloMosaic.ValueIdx
  Idealize.ShloMosaic.StableHlo Idealize.SL.Sem

/-- [a, 1] viewed [a]: entry i is entry (i, 0). -/
theorem cast_row_apply {α : Type} {a : Nat} (v : (⟨2, ![a, 1]⟩ : Shape).Idx → α)
    (h : (⟨2, ![a, 1]⟩ : Shape).ShapeCasts ⟨1, ![a]⟩) (i : Fin a) :
    shapeCast ⟨1, ![a]⟩ v h (ix1 i) = v (ix2 i 0) :=
  shapeCast_apply v h (ix1 i) (ix2 i 0) (by
    rw [Shape.rowMajor_val_one, Shape.rowMajor_val_two]
    show i.val * 1 + 0 = i.val
    omega)

/-- A host negation read at an index negates the entry … -/
theorem host_negf_apply {s : Shape} (f : FVec Ideal s .f32) (i : s.Idx) : Host.negf f i = -(f i) := rfl
/-- … and a host quotient is the quotient of the entries. -/
theorem host_divf_apply {s : Shape} (f g : FVec Ideal s .f32) (i : s.Idx) : Host.divf f g i = Ideal.div (f i) (g i) := rfl

/-- The host's sum of a vector of 2048 entries into rank 0, from the zero pattern, is the sum of the entries. -/
theorem total_apply (y : FVec Ideal S2048 .f32) (i : S_.Idx) :
    Host.reduceAdd y (constant (F := Ideal) S_ .f32 0x00000000#32) reducesTo_S2048_S_d0 h_S_ i
      = ∑ b : Fin 2048, y (ix1 b) := by
  simp only [Host.reduceAdd, Ideal.hostReduceAdd_def]
  rw [Ideal.hostReduceAdd_total reducesTo_S2048_S_d0 (fun b => b.elim0), IdxSum.sum_idx1, constant_apply,
    Ideal.ofBits_zero_f32, zero_add]

/-- The tail's result is minus the mean of the region's result column. -/
theorem tail_value (W : Valuation τ sig (Elt Ideal)) :
    StableHlo.after (hostOps1 (F := Ideal)) W (Proc.devRef .tc main_v4)
      = fun _ => -(Ideal.div (∑ b : Fin 2048, (W (Proc.devRef .tc main_v0) : S2048x1.Idx → EReal) (ix2 b 0)) SoftDist.cN) := by
  show StableHlo.after hostOps1 _ (Proc.devRef .tc main_v4) = _
  after_results
  funext i
  rw [host_negf_apply, host_divf_apply, total_apply, constant_apply]
  refine congrArg (fun z => -(Ideal.div z SoftDist.cN)) (Finset.sum_congr rfl fun b _ => ?_)
  exact cast_row_apply (W (Proc.devRef .tc main_v0)) shapeCasts_S2048x1_S2048 b

end Cert.KernelIdeal.Tail

end
-- ==== Proof.KernelRun.lean ====
/-
  The kernel program's run at the ideal values, read as a value: its result is minus the mean of the points' values.

  The region's run leaves its result column at what the write-backs put there; the induction over the grid says the
  block written back after a row block's last column group holds that block's values, and the two write-backs cover
  the column, so the column holds every point's value. The host operations after the region turn the column into minus
  its mean.
-/
import proofs.«143901_j14620068675661_2_alg».proof.Proof.Invariant
import proofs.«143901_j14620068675661_2_alg».proof.Proof.Final
import proofs.«143901_j14620068675661_2_alg».proof.Proof.Tail

set_option maxRecDepth 16384

noncomputable section

open scoped BigOperators

namespace Cert.KernelIdeal.RunValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result column after the region: every point's value. -/
theorem column (c : Dev nD) : (dats m 0 c).arrAt 2 cfg0.N = Final.G m c :=
  Final.final m c (Accum.out_last m c)

/-- The result after the host operations that follow: minus the mean of the points' values. -/
theorem result_eq (c : Dev nD) :
    Pipeline.afterTail₀ cfgs (dats m) 0 (V0 m) [hostOps1] c main_v4
      = fun _ => SoftDist.resK (Accum.argX m c) (Accum.argY m c) := by
  unfold Pipeline.afterTail₀
  show StableHlo.after hostOps1 _ (Proc.devRef .tc main_v4) = _
  rw [Tail.tail_value]
  funext _
  unfold SoftDist.resK
  refine congrArg (fun z => -(Ideal.div z SoftDist.cN)) (Finset.sum_congr rfl fun b _ => ?_)
  have e := (Pipeline.withArrays_arr spec0 launch0.win.arr_inj c (V0 m c) (fun w => (dats m 0 c).arrAt w cfg0.N) 2).trans
    (column m c)
  exact congrFun e (ix2 b 0)

/-- The program's result buffer is none of the region's three arrays. -/
theorem result_not_array : ∀ w : Fin 3, (spec0 w).arr.view.ref ≠ main_v4 := by decide

/-- Every weakly fair execution of the kernel program ends with its result at minus the mean of the points' values and
    its two arguments as they were. -/
theorem run : θ_run defs (onTc (τ := τ) (main (F := Ideal))) ⟨m, fun _ => 0, ρ⟩ fun r => ∀ c : Dev nD,
      r.2.mem ((c.tc : Thread nD τ).loc main_v4) = (fun _ => SoftDist.resK (Accum.argX m c) (Accum.argY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 rfl result_not_array)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefValue.lean ====
/-
  The reference program's last stage, read as a function of its two arguments, is the statistic `SoftDist.resR`.

  The program is a chain of elementwise operations, broadcasts, one transpose, one contraction and five sums. Each
  stage is read at an index given by explicit coordinates: a broadcast or the transpose reads its operand at the index
  with the broadcast coordinate dropped (or the two coordinates swapped), the contraction is the sum over the 512 shared
  coordinates of the products, and a sum along the last axis is its initial value, the zero pattern, plus the sum over
  that axis. Reading the chain from the arguments upward gives, in turn, the squared norms, the cross term, the clamped
  squared distance, the distance, the weight, the normalizer, the normalized weighted distance, each point's capped
  value, and minus the mean.
-/
import proofs.«143901_j14620068675661_2_alg».proof.Proof.Gen.ReferenceIdeal.Read
import proofs.«143901_j14620068675661_2_alg».proof.Proof.Spec
import proofs.«143901_j14620068675661_2_alg».proof.Proof.IdxSum

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Indices by coordinates -/

/-- The index a row sum reads: row `b`, column `d`. -/
theorem idx_v1 (b : Fin 2048) (d : Fin 512) : idx_main_v1 (ix1 b) d = ix2 b d :=
  funext fun a => Fin.ext (by match a with | ⟨0, _⟩ => rfl | ⟨1, _⟩ => rfl)

theorem idx_v4 (k : Fin 32768) (d : Fin 512) : idx_main_v4 (ix1 k) d = ix2 k d :=
  funext fun a => Fin.ext (by match a with | ⟨0, _⟩ => rfl | ⟨1, _⟩ => rfl)

/-- The column of squared norms of X, broadcast along the rows of the pair table, is read at the point's own index. -/
theorem idx_v7 (b : Fin 2048) (k : Fin 32768) : idx_main_v2 (idx_main_v7 (ix2 b k)) = ix1 b :=
  funext fun a => Fin.ext (by match a with | ⟨0, _⟩ => rfl)

/-- The row of squared norms of Y (a column, transposed), broadcast down the pair table, is read at the point's own index. -/
theorem idx_v8 (b : Fin 2048) (k : Fin 32768) : idx_main_v5 (idx_main_v6 (idx_main_v8 (ix2 b k))) = ix1 k :=
  funext fun a => Fin.ext (by match a with | ⟨0, _⟩ => rfl)

theorem lidx_v10 (b : Fin 2048) (k : Fin 32768) (d : Fin 512) : lidx_main_v10 (ix2 b k) d = ix2 b d :=
  funext fun a => Fin.ext (by match a with | ⟨0, _⟩ => rfl | ⟨1, _⟩ => rfl)

theorem ridx_v10 (b : Fin 2048) (k : Fin 32768) (d : Fin 512) : ridx_main_v10 (ix2 b k) d = ix2 k d :=
  funext fun a => Fin.ext (by match a with | ⟨0, _⟩ => rfl | ⟨1, _⟩ => rfl)

theorem idx_v22 (b : Fin 2048) (k : Fin 32768) : idx_main_v22 (ix1 b) k = ix2 b k :=
  funext fun a => Fin.ext (by match a with | ⟨0, _⟩ => rfl | ⟨1, _⟩ => rfl)

theorem idx_v29 (b : Fin 2048) (k : Fin 32768) : idx_main_v29 (ix1 b) k = ix2 b k :=
  funext fun a => Fin.ext (by match a with | ⟨0, _⟩ => rfl | ⟨1, _⟩ => rfl)

/-- The column of normalizers, broadcast along the rows of the pair table, is read at the point's own index. -/
theorem idx_v26 (b : Fin 2048) (k : Fin 32768) : idx_main_v23 (idx_main_v26 (ix2 b k)) = ix1 b :=
  funext fun a => Fin.ext (by match a with | ⟨0, _⟩ => rfl)

/-! ## The stages -/

section
variable (X : (⟨S2048x512, .f32⟩ : BufTy).Contents (Elt Ideal)) (Y : (⟨S32768x512, .f32⟩ : BufTy).Contents (Elt Ideal))

/-- The squared norm of point `b` of X. -/
theorem v1_eq (b : Fin 2048) : val_main_v1 (F := Ideal) X (ix1 b) = SoftDist.sqX X b := by
  rw [val_main_v1_apply, val_main_cst_apply, Ideal.ofBits_def, Ideal.ofBits_zero_f32, zero_add]
  unfold SoftDist.sqX
  refine Finset.sum_congr rfl fun d _ => ?_
  rw [idx_v1, val_main_v0_apply, Ideal.mulf_def]

/-- The squared norm of point `k` of Y. -/
theorem v4_eq (k : Fin 32768) : val_main_v4 (F := Ideal) Y (ix1 k) = SoftDist.sqY Y k := by
  rw [val_main_v4_apply, val_main_cst_0_apply, Ideal.ofBits_def, Ideal.ofBits_zero_f32, zero_add]
  unfold SoftDist.sqY
  refine Finset.sum_congr rfl fun d _ => ?_
  rw [idx_v4, val_main_v3_apply, Ideal.mulf_def]

/-- The sum of the two squared norms of the pair. -/
theorem v9_eq (b : Fin 2048) (k : Fin 32768) :
    val_main_v9 (F := Ideal) X Y (ix2 b k) = SoftDist.sqX X b + SoftDist.sqY Y k := by
  rw [val_main_v9_apply, Ideal.addf_def, val_main_v7_apply, val_main_v2_apply, idx_v7, v1_eq,
    val_main_v8_apply, val_main_v6_apply, val_main_v5_apply, idx_v8, v4_eq]

/-- The inner product of the pair. -/
theorem v10_eq (b : Fin 2048) (k : Fin 32768) : val_main_v10 (F := Ideal) X Y (ix2 b k) = SoftDist.cross X Y b k := by
  rw [val_main_v10_apply]
  unfold SoftDist.cross
  refine Finset.sum_congr rfl fun d _ => ?_
  rw [lidx_v10, ridx_v10]

/-- The clamped squared distance of the pair. -/
theorem v15_eq (b : Fin 2048) (k : Fin 32768) : val_main_v15 (F := Ideal) X Y (ix2 b k) = SoftDist.d2 X Y b k := by
  rw [val_main_v15_apply, Ideal.maximumf_def, val_main_v13_apply, Ideal.subf_def, v9_eq, val_main_v12_apply,
    Ideal.mulf_def, v10_eq, val_main_v11_apply, val_main_cst_1_apply, Ideal.ofBits_def, val_main_v14_apply,
    val_main_cst_2_apply, Ideal.ofBits_def, Ideal.ofBits_zero_f32]
  rfl

/-- The distance of the pair. -/
theorem v16_eq (b : Fin 2048) (k : Fin 32768) : val_main_v16 (F := Ideal) X Y (ix2 b k) = SoftDist.dist X Y b k := by
  rw [val_main_v16_apply, Ideal.hostUnary_sqrt_def, v15_eq]
  rfl

/-- The weight of the pair. -/
theorem v21_eq (b : Fin 2048) (k : Fin 32768) : val_main_v21 (F := Ideal) X Y (ix2 b k) = SoftDist.wR X Y b k := by
  rw [val_main_v21_apply, Ideal.hostUnary_exp_def, val_main_v20_apply, Ideal.hostDivf_def, val_main_v18_apply,
    Ideal.hostNegf_def, Ideal.negf_def, val_main_v17_apply, Ideal.mulf_def, v16_eq, val_main_v19_apply,
    val_main_cst_3_apply, Ideal.ofBits_def]
  rfl

/-- The sum of point `b`'s weights. -/
theorem v22_eq (b : Fin 2048) : val_main_v22 (F := Ideal) X Y (ix1 b) = ∑ k : Fin 32768, SoftDist.wR X Y b k := by
  rw [val_main_v22_apply, val_main_cst_4_apply, Ideal.ofBits_def, Ideal.ofBits_zero_f32, zero_add]
  refine Finset.sum_congr rfl fun k _ => ?_
  rw [idx_v22, v21_eq]

/-- The normalizer of point `b`, read anywhere along its row of the pair table. -/
theorem v26_eq (b : Fin 2048) (k : Fin 32768) :
    val_main_v26 (F := Ideal) X Y (ix2 b k) = ∑ k' : Fin 32768, SoftDist.wR X Y b k' + SoftDist.ceps := by
  rw [val_main_v26_apply, val_main_v25_apply, Ideal.addf_def, val_main_v23_apply, idx_v26, v22_eq,
    val_main_v24_apply, val_main_cst_5_apply, Ideal.ofBits_def]

/-- The pair's normalized weight times its distance. -/
theorem v28_eq (b : Fin 2048) (k : Fin 32768) :
    val_main_v28 (F := Ideal) X Y (ix2 b k)
      = Ideal.div (SoftDist.wR X Y b k) (∑ k' : Fin 32768, SoftDist.wR X Y b k' + SoftDist.ceps) * SoftDist.dist X Y b k := by
  rw [val_main_v28_apply, Ideal.mulf_def, val_main_v27_apply, Ideal.hostDivf_def, v21_eq, v26_eq, v16_eq]

/-- Point `b`'s capped value. -/
theorem v31_eq (b : Fin 2048) : val_main_v31 (F := Ideal) X Y (ix1 b) = SoftDist.outR X Y b := by
  rw [val_main_v31_apply, Ideal.minimumf_def, val_main_v29_apply, val_main_cst_6_apply, Ideal.ofBits_def,
    Ideal.ofBits_zero_f32, zero_add, val_main_v30_apply, val_main_cst_7_apply, Ideal.ofBits_def]
  unfold SoftDist.outR
  refine congrArg (fun z => min z SoftDist.c3) (Finset.sum_congr rfl fun k _ => ?_)
  rw [idx_v29, v28_eq]

/-- The reference's result: minus the mean of the 2048 capped values. -/
theorem ref_value : val_main_v34 (F := Ideal) X Y = fun _ => SoftDist.resR X Y := by
  funext i
  rw [val_main_v34_apply, Ideal.hostNegf_def, Ideal.negf_def, val_main_v33_apply, Ideal.hostDivf_def,
    val_main_v32_apply, val_main_cst_8_apply, Ideal.ofBits_def, Ideal.ofBits_zero_f32, zero_add,
    val_main_cst_9_apply, Ideal.ofBits_def, IdxSum.sum_idx1]
  unfold SoftDist.resR
  refine congrArg (fun z => -(Ideal.div z SoftDist.cN)) (Finset.sum_congr rfl fun b _ => ?_)
  exact v31_eq X Y b

end

end Cert.ReferenceIdeal.RefValue

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  The two arguments hold real numbers wherever the printed finiteness test returns one.

  The test takes, for each argument, the absolute value of every entry, compares it below the bit pattern of plus
  infinity, and reduces the bits by conjunction to one bit; its result is the conjunction of the two bits. If that is
  one, both bits are one, and a bit that is one says every entry of its argument has absolute value below plus
  infinity, that is, is a real number.
-/
import proofs.«143901_j14620068675661_2_alg».proof.Proof.LibFiniteEntries
import proofs.«143901_j14620068675661_2_alg».proof.Pre_finite_inputs

noncomputable section

namespace Cert.Finite

open Idealize.ShloMosaic Idealize.ShloMosaic.ValueIdx

/-- Where the finiteness test of the two arguments is one, every entry of either is a real number. -/
theorem real_inputs [Cert.Pre_finite_inputs.Facts] (X : FVec Ideal Cert.Pre_finite_inputs.S2048x512 .f32)
    (Y : FVec Ideal Cert.Pre_finite_inputs.S32768x512 .f32)
    (h : Cert.Pre_finite_inputs.fn (F := Ideal) X Y = fun _ => 1#1) :
    (∀ i, ∃ r : ℝ, X i = r) ∧ (∀ i, ∃ r : ℝ, Y i = r) := by
  have h0 := congrFun h ValueIdx.ix0
  dsimp only [Cert.Pre_finite_inputs.fn] at h0
  obtain ⟨hx, hy⟩ := IntOp.andi_eq_one.1 h0
  exact ⟨Cert.LibFiniteEntries.real_entries_of_all_lt_inf X _ _ _ _ hx,
    Cert.LibFiniteEntries.real_entries_of_all_lt_inf Y _ _ _ _ hy⟩

end Cert.Finite

end
-- ==== Proof.lean ====
/-
  A kernel program and its reference program compute one statistic of two point clouds X (2048 points) and Y (32768 points) in
  512 dimensions: for every point of X the mean of its distances to the points of Y, weighted by the exponential of
  minus the squared distance, the normalizer enlarged by a small constant, capped at three; then minus the mean over X.

  The kernel walks a grid of 2 row blocks of X by 64 column groups of Y, keeping per row the running sums of weights
  and of weights times distances, and divides once at the end; the reference builds the whole 2048 x 32768 table,
  squares the distance again for the exponent, and normalizes every weight before it sums. On extended reals the two
  agree wherever every coordinate is a real number, which is what the precondition says:
  * the kernel's result (Proof/KernelRun.lean, over the induction of Proof/Invariant.lean) is SoftDist.resK of the
    arguments;
  * the reference's result (Proof/RefValue.lean) is SoftDist.resR of the arguments;
  * resK = resR for real coordinates (Proof/Spec.lean): (sqrt d)^2 = d for d >= 0, and a positive real normalizer moves
    across a finite sum;
  * real coordinates follow from the finiteness test (Proof/Finite.lean).
  The three frame claims are the generated frame of each kernel program and the reference's generated run; the ideal
  pass rewrote nothing, so the idealization claim is trivial.
-/
import proofs.«143901_j14620068675661_2_alg».proof.Defs
import proofs.«143901_j14620068675661_2_alg».proof.Proof.Gen.Kernel
import proofs.«143901_j14620068675661_2_alg».proof.Proof.Gen.Kernel.Skeleton
import proofs.«143901_j14620068675661_2_alg».proof.Proof.Gen.Kernel.Launch
import proofs.«143901_j14620068675661_2_alg».proof.Proof.Gen.Kernel.Points
import proofs.«143901_j14620068675661_2_alg».proof.Proof.Gen.Kernel.Frame
import proofs.«143901_j14620068675661_2_alg».proof.Proof.Gen.KernelIdeal
import proofs.«143901_j14620068675661_2_alg».proof.Proof.Gen.KernelIdeal.Skeleton
import proofs.«143901_j14620068675661_2_alg».proof.Proof.Gen.KernelIdeal.Launch
import proofs.«143901_j14620068675661_2_alg».proof.Proof.Gen.KernelIdeal.Points
import proofs.«143901_j14620068675661_2_alg».proof.Proof.Gen.KernelIdeal.Frame
import proofs.«143901_j14620068675661_2_alg».proof.Proof.Gen.ReferenceIdeal
import proofs.«143901_j14620068675661_2_alg».proof.Proof.Gen.ReferenceIdeal.Run
import proofs.«143901_j14620068675661_2_alg».proof.Proof.Gen.ReferenceIdeal.Read
import proofs.«143901_j14620068675661_2_alg».proof.Proof.Gen.Pre_finite_inputs
import proofs.«143901_j14620068675661_2_alg».proof.Proof.KernelRun
import proofs.«143901_j14620068675661_2_alg».proof.Proof.RefValue
import proofs.«143901_j14620068675661_2_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, whose coordinates the precondition makes real numbers, the kernel
    program ends at resK of them and the reference at resR of them: the same extended real. -/
theorem algebraic : Cert.algebraic_KernelIdeal_ReferenceIdeal := by
  intro m ρ m' ρ' hpre hagree
  refine ⟨fun c _ => SoftDist.resK (Cert.KernelIdeal.Accum.argX m c) (Cert.KernelIdeal.Accum.argY m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_value, (hagree c).1, (hagree c).2]
  obtain ⟨hX, hY⟩ := Cert.Finite.real_inputs _ _ (hpre c)
  funext _
  exact (SoftDist.resK_eq_resR _ _ hX hY).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
